-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4x128 : Shape := ⟨2, ![4, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S8192x128 .f32) (main_arg1 : FVec F S4x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  main_v8
-- ==== Kernel.lean ====
abbrev S8192x128 : Shape := ⟨2, ![8192, 128]⟩
abbrev S4x128 : Shape := ⟨2, ![4, 128]⟩
abbrev S8192x512 : Shape := ⟨2, ![8192, 512]⟩
abbrev S1024x128 : Shape := ⟨2, ![1024, 128]⟩
abbrev S1024x512 : Shape := ⟨2, ![1024, 512]⟩
abbrev S1x128 : Shape := ⟨2, ![1, 128]⟩
abbrev S128 : Shape := ⟨1, ![128]⟩
abbrev S1024 : Shape := ⟨1, ![1024]⟩
abbrev S1024x1 : Shape := ⟨2, ![1024, 1]⟩
abbrev S8192x8192 : Shape := ⟨2, ![8192, 8192]⟩
abbrev S2048x512 : Shape := ⟨2, ![2048, 512]⟩
abbrev S1024x2048 : Shape := ⟨2, ![1024, 2048]⟩

abbrev nBuf : Space → Nat
  | .hbm => 4
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S4x128, .f32⟩
  | .hbm, ⟨2, _⟩ => ⟨S8192x512, .bf16⟩
  | .hbm, ⟨3, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S4x128, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S2048x512, .bf16⟩
  | .local _ .vmem, ⟨8, _⟩ => ⟨S2048x512, .bf16⟩
  | .local _ .vmem, ⟨9, _⟩ => ⟨S1024x2048, .f32⟩
  | .local _ .vmem, ⟨10, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S4x128_S4x128_0_0 : ∀ a, (![0, 0] : Fin 2 → Nat) a + S4x128.size a ≤ S4x128.size a
  h_S4x128 : 0 < S4x128.numel
  slices_S4x128_o0_0_S1x128 : S4x128.Slices ![0, 0] S1x128
  shapeCasts_S1x128_S128 : S1x128.ShapeCasts S128
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S1024x512_S1024x128_0_0 : ∀ a, (![0, 0] : Fin 2 → Nat) a + S1024x128.size a ≤ S1024x512.size a
  packedbf16_S1024x512_S1024x128_0_0 : (Rect.unit (s := S1024x512) ![0, 0] S1024x128.size inb_S1024x512_S1024x128_0_0).PackedRows (EltTy.packing .bf16)
  slices_S4x128_o1_0_S1x128 : S4x128.Slices ![1, 0] S1x128
  inb_S1024x512_S1024x128_0_128 : ∀ a, (![0, 128] : Fin 2 → Nat) a + S1024x128.size a ≤ S1024x512.size a
  packedbf16_S1024x512_S1024x128_0_128 : (Rect.unit (s := S1024x512) ![0, 128] S1024x128.size inb_S1024x512_S1024x128_0_128).PackedRows (EltTy.packing .bf16)
  slices_S4x128_o2_0_S1x128 : S4x128.Slices ![2, 0] S1x128
  inb_S1024x512_S1024x128_0_256 : ∀ a, (![0, 256] : Fin 2 → Nat) a + S1024x128.size a ≤ S1024x512.size a
  packedbf16_S1024x512_S1024x128_0_256 : (Rect.unit (s := S1024x512) ![0, 256] S1024x128.size inb_S1024x512_S1024x128_0_256).PackedRows (EltTy.packing .bf16)
  slices_S4x128_o3_0_S1x128 : S4x128.Slices ![3, 0] S1x128
  inb_S1024x512_S1024x128_0_384 : ∀ a, (![0, 384] : Fin 2 → Nat) a + S1024x128.size a ≤ S1024x512.size a
  packedbf16_S1024x512_S1024x128_0_384 : (Rect.unit (s := S1024x512) ![0, 384] S1024x128.size inb_S1024x512_S1024x128_0_384).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x8192.size a
  hwx1_2 : ∀ i : grid1.Coords, EltTy.bits .f32 = 32 ∨ (Rect.block (s := S8192x8192) S1024x2048.size (cc1_transform_2 i) (hinb1_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S4x128 : Shape := ⟨2, ![4, 128]⟩
abbrev S1x8192x128 : Shape := ⟨3, ![1, 8192, 128]⟩
abbrev S4x1x128 : Shape := ⟨3, ![4, 1, 128]⟩
abbrev S4x8192x128 : Shape := ⟨3, ![4, 8192, 128]⟩
abbrev S_ : Shape := ⟨0, ![]⟩
abbrev S4x8192 : Shape := ⟨2, ![4, 8192]⟩
abbrev S4x8192x1 : Shape := ⟨3, ![4, 8192, 1]⟩
abbrev S4x8192x8192 : Shape := ⟨3, ![4, 8192, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4x128, .f32⟩
  | .hbm, ⟨2, _⟩ => ⟨S1x8192x128, .f32⟩
  | .hbm, ⟨3, _⟩ => ⟨S4x1x128, .f32⟩
  | .hbm, ⟨4, _⟩ => ⟨S4x8192x128, .f32⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x128, .f32⟩
  | .hbm, ⟨16, _⟩ => ⟨S4x8192x128, .f32⟩
  | .hbm, ⟨17, _⟩ => ⟨S4x8192x8192, .f32⟩
  | .hbm, ⟨18, _⟩ => ⟨S_, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S8192x128_S1x8192x128_1_2 : S8192x128.BroadcastsInDim S1x8192x128 (![1, 2] : Fin 2 → Fin S1x8192x128.rank)
  bcast_S4x128_S4x1x128_0_2 : S4x128.BroadcastsInDim S4x1x128 (![0, 2] : Fin 2 → Fin S4x1x128.rank)
  bcast_S1x8192x128_S4x8192x128_0_1_2 : S1x8192x128.BroadcastsInDim S4x8192x128 (![0, 1, 2] : Fin 3 → Fin S4x8192x128.rank)
  bcast_S4x1x128_S4x8192x128_0_1_2 : S4x1x128.BroadcastsInDim S4x8192x128 (![0, 1, 2] : Fin 3 → Fin S4x8192x128.rank)
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x128_0_1_2 : S4x8192x1.BroadcastsInDim S4x8192x128 (![0, 1, 2] : Fin 3 → Fin S4x8192x128.rank)
  reducesTo_S4x8192x8192_S8192x8192_d0 : S4x8192x8192.ReducesTo [0] S8192x8192
  bcast_S_S8192x8192 : S_.BroadcastsInDim S8192x8192 (![] : Fin 0 → Fin S8192x8192.rank)
  dot_S4x8192x128_S4x8192x128_S4x8192x8192_2_2_1_1_0_0_wf : DotDims.WF S4x8192x128 S4x8192x128 S4x8192x8192 [2] [2] [1] [1] [0] [0]

variable [Facts₀]

def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf

class Facts : Prop extends Facts₀ where

variable [Facts]
-- ==== Proof.KernelBodies.lean ====
import proofs.«163775_j29703993819992_2_alg».proof.Proof.Gen.Kernel.Launch
import proofs.«163775_j29703993819992_2_alg».proof.Proof.Gen.Kernel.Skeleton
import proofs.«163775_j29703993819992_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two kernel regions, each at the contents it is entered from

The program runs two pipelined kernels one after the other. The first reads a block of 1024 embedding rows and the
whole 4 × 128 weight array and writes a 1024 × 512 block through FOUR stores, one per head, each filling 128
adjacent lanes; the four rectangles tile the block. The second reads a block of 1024 rows and a block of 2048 rows
of ONE AND THE SAME 8192 × 512 array (through two windows) and writes a 1024 × 2048 block through one store.

For each region, at a parameter `V` (the TensorCore's buffers when the region is entered): a window's block at a
grid point, what the body leaves in the output's staging buffer as a function of the input blocks, the body's
triple, and the pipeline's proof data with the body obligation at every point. In the second region the two input
windows hold the shared array at the two halves of the full share.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: scale by each head's weights and normalise -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding rows' staging buffer holds the point's block whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer (fetched once, its block index never moves) holds the whole weight array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rows' block and the weight array, read whole; the four lane groups of the output block, one per head. -/
abbrev rRows : Rect S1024x128 := Rect.unit (s := S1024x128) ![0, 0] S1024x128.size inb_S1024x128_S1024x128_0_0
abbrev rWts : Rect S4x128 := Rect.unit (s := S4x128) ![0, 0] S4x128.size inb_S4x128_S4x128_0_0
abbrev rHead0 : Rect S1024x512 := Rect.unit (s := S1024x512) ![0, 0] S1024x128.size inb_S1024x512_S1024x128_0_0
abbrev rHead1 : Rect S1024x512 := Rect.unit (s := S1024x512) ![0, 128] S1024x128.size inb_S1024x512_S1024x128_0_128
abbrev rHead2 : Rect S1024x512 := Rect.unit (s := S1024x512) ![0, 256] S1024x128.size inb_S1024x512_S1024x128_0_256
abbrev rHead3 : Rect S1024x512 := Rect.unit (s := S1024x512) ![0, 384] S1024x128.size inb_S1024x512_S1024x128_0_384

/-- The output block after the body: the four heads' normalised rows, each in its own 128 lanes (the stores as pieces,
    the last one first). -/
def out0 (x0 : Vec F S1024x128 .f32) (x1 : Vec F S4x128 .f32) : Vec F S1024x512 .bf16 :=
  View.canon [⟨rHead3, k0_pay2 (View.ld x0 rRows) (View.ld x1 rWts)⟩,
    ⟨rHead2, k0_pay1 (k0_pay5 (View.ld x0 rRows) (View.ld x1 rWts)) (k0_pay6 (View.ld x0 rRows) (View.ld x1 rWts))⟩,
    ⟨rHead1, k0_pay4 (View.ld x0 rRows) (View.ld x1 rWts)⟩,
    ⟨rHead0, k0_pay3 (View.ld x0 rRows) (View.ld x1 rWts)⟩]

/-- The four lane groups tile the block, so every entry lies in one of them. -/
theorem cover0 (p0 p1 p2 p3 : Vec F S1024x128 .bf16) (y : S1024x512.Idx) :
    ∃ pc ∈ ([⟨rHead3, p0⟩, ⟨rHead2, p1⟩, ⟨rHead1, p2⟩, ⟨rHead0, p3⟩] : List (View.Piece (Elt F) S1024x512 .bf16)), y ∈ pc.1.set :=
  View.cover_of_tiled [⟨rHead3, p0⟩, ⟨rHead2, p1⟩, ⟨rHead1, p2⟩, ⟨rHead0, p3⟩] S1024x128.size (by rfl) y

set_option maxHeartbeats 1000000 in
/-- The body on whole staging memrefs — the rows' block and the weights at read contents, the output's at anything —
    runs to the continuation holding the inputs as they were and the output at `out0` of them. -/
theorem sound_kernel0 (c : Dev nD) (E : Set ℕ) (i : grid0.Coords) (arg1 : Memref sig .tc .vmem S1024x128 .f32) (harg1 : arg1.IsWhole)
    (arg2 : Memref sig .tc .vmem S4x128 .f32) (harg2 : arg2.IsWhole) (arg3 : Memref sig .tc .vmem S1024x512 .bf16) (harg3 : arg3.IsWhole)
    (x0 : Vec F S1024x128 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0_normalize_kernel i arg1 harg1 arg2 harg2 arg3 harg3) K := by
  simp only [cc0_normalize_kernel_eq_skeleton]; unfold cc0_normalize_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0 _ _ _ _)

/-- Region 0's proof data on core `c`: the arrays as the region finds them; after the body each input's buffer at its
    block and the output's at `out0` of the input blocks; the invariant untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: inner products of the folded rows -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left rows' staging buffer (fetched when the first grid coordinate moves) holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right rows' staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rLeft : Rect S1024x512 := Rect.unit (s := S1024x512) ![0, 0] S1024x512.size inb_S1024x512_S1024x512_0_0
abbrev rRight : Rect S2048x512 := Rect.unit (s := S2048x512) ![0, 0] S2048x512.size inb_S2048x512_S2048x512_0_0
abbrev rProd : Rect S1024x2048 := Rect.unit (s := S1024x2048) ![0, 0] S1024x2048.size inb_S1024x2048_S1024x2048_0_0

/-- The output block after the body: the scaled inner products of the left rows with the right rows (one store). -/
def out1 (x0 : Vec F S1024x512 .bf16) (x1 : Vec F S2048x512 .bf16) : Vec F S1024x2048 .f32 :=
  View.canon [⟨rProd, k1_pay1 (View.ld x0 rLeft) (View.ld x1 rRight)⟩]

theorem cover1 (p0 : Vec F S1024x2048 .f32) (y : S1024x2048.Idx) :
    ∃ pc ∈ ([⟨rProd, p0⟩] : List (View.Piece (Elt F) S1024x2048 .f32)), y ∈ pc.1.set :=
  View.cover_of_tiled [⟨rProd, p0⟩] S1024x2048.size (by rfl) y

set_option maxHeartbeats 1000000 in
/-- The body on whole staging memrefs — the two row blocks at read contents, the output's at anything — runs to the
    continuation holding the inputs as they were and the output at `out1` of them. -/
theorem sound_kernel1 (c : Dev nD) (E : Set ℕ) (i : grid1.Coords) (arg2 : Memref sig .tc .vmem S1024x512 .bf16) (harg2 : arg2.IsWhole)
    (arg3 : Memref sig .tc .vmem S2048x512 .bf16) (harg3 : arg3.IsWhole) (arg4 : Memref sig .tc .vmem S1024x2048 .f32) (harg4 : arg4.IsWhole)
    (x0 : Vec F S1024x512 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1 _)

/-- Region 1's proof data on core `c`: as region 0's, except that the two input windows read ONE array and hold it at
    the left and the right half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.KernelRun.lean ====
import proofs.«163775_j29703993819992_2_alg».proof.Proof.KernelBodies

/-!
# The run of the two regions, with the contents of every buffer at the end

Between the launch and the return the program's four unscoped buffers — the two arguments, the folded rows and
the result — go through three states: as launched; after the first kernel, which writes the folded rows block by
block and leaves the rest; after the second, which writes the result and leaves the rest. Each kernel is a
segment entered from "every unscoped buffer whole at the state's contents" and left at the next state's.

The second kernel reads the folded rows through TWO windows. At its entry the buffer's full share is cut into its
two halves, one per window; at its exit the two halves — both still at the contents found, an input window never
writes — are joined back. Everything else is the launch of the segments and reading the last state.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four unscoped buffers, and region 1's arrays, one by one -/

/-- A core's unscoped buffers are the two arguments, the folded rows and the result. -/
theorem unscopedBufs_four (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold unscopedBufs
  exact bigSep_eq_bigSepL_of_eq [main_arg0, main_arg1, main_v0, main_v1] (by decide) (by decide) _

section Shared
variable (V : (c : Dev nD) → (b : Ref sig .tc) → Buf (Elt F) ((c : Thread nD τ).loc b))

/-- Region 1's arrays: the folded rows at the left half of the full share (the left rows' window), the same buffer at
    the right half (the right rows' window), the result at the full share. -/
theorem arrays1_three (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- Entry of region 1: the unscoped buffers at `V` are its arrays at the entry contents — the folded rows' full share
    cut into its halves — beside the two arguments, which bypass the region. -/
theorem entry1 (c : Dev nD) :
    (unscopedBufs c (V c) : sProp 𝕄) ⊢ iprop((dat1 V c).arrays ((dat1 V c).arrAt · 0) ∗ Pipeline.unscopedRest spec1 c (V c)) := by
  rw [unscopedBufs_four, arrays1_three, unscopedRest1_eq]
  iintro ⟨Ha0, Ha1, Hv0, Hv1⟩
  ihave Hs := (pointsTo_share (PosShare.mem_left_op_right fullShare)).1 $$ Hv0
  icases Hs with ⟨Hl, Hr⟩
  isplitl [Hl Hr Hv1]
  · isplitl [Hl]; · iexact Hl
    isplitl [Hr]; · iexact Hr
    iexact Hv1
  isplitl [Ha0]; · iexact Ha0
  iexact Ha1

/-- Exit of region 1: its arrays at the final contents — the two halves of the folded rows as found, the result as
    written — beside the arguments are the unscoped buffers at any `V'` that has the result's final contents and
    agrees with `V` elsewhere. -/
theorem exit1 (c : Dev nD) (V' : (b : Ref sig .tc) → Buf (Elt F) ((c : Thread nD τ).loc b))
    (h0 : V' main_arg0 = V c main_arg0) (h1 : V' main_arg1 = V c main_arg1) (h2 : V' main_v0 = V c main_v0)
    (h3 : V' main_v1 = (dat1 V c).arrAt 2 cfg1.N) :
    iprop((dat1 V c).arrays ((dat1 V c).arrAt · cfg1.N) ∗ Pipeline.unscopedRest spec1 c (V c)) ⊢ (unscopedBufs c V' : sProp 𝕄) := by
  rw [unscopedBufs_four, arrays1_three, unscopedRest1_eq, h0, h1, h2, h3,
    show (dat1 V c).arrAt 0 cfg1.N = V c main_v0 from ((dat1 V c).arrAt_in 0 rfl _).trans (A_eq1 V c 0),
    show (dat1 V c).arrAt 1 cfg1.N = V c main_v0 from ((dat1 V c).arrAt_in 1 rfl _).trans (A_eq1 V c 1)]
  iintro ⟨⟨Hl, Hr, Hv1⟩, Ha0, Ha1⟩
  isplitl [Ha0]; · iexact Ha0
  isplitl [Ha1]; · iexact Ha1
  isplitl [Hl Hr]
  · iapply (pointsTo_share (PosShare.mem_left_op_right fullShare)).2
    isplitl [Hl]; · iexact Hl
    iexact Hr
  iexact Hv1

end Shared

variable (m : (ℓ : Loc nD τ sig) → Buf (Elt F) ℓ) (ρ : Dev nD → PrngReg)

/-! ## The buffers' contents at the three states -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0 (region 1's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After region 1 (the return): the result at what the pipeline leaves, every other buffer as entered. -/
def W2 (c : Dev nD) : Valuation τ sig (Elt F) :=
  Function.update (W1 m ρ c) (Proc.devRef .tc main_v1) ((dat1 (V1 m ρ) c).arrAt 2 cfg1.N)
abbrev V2 : (c : Dev nD) → (b : Ref sig .tc) → Buf (Elt F) ((c : Thread nD τ).loc b) := fun c b => W2 m ρ c b
theorem W2_main_v1 (c : Dev nD) : W2 m ρ c (Proc.devRef .tc main_v1) = (dat1 (V1 m ρ) c).arrAt 2 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _

/-- The two arguments at the end are as launched: neither region writes them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- The folded rows region 1 reads are what region 0's write-backs left. -/
theorem V1_main_v0 (c : Dev nD) : V1 m ρ c main_v0 = (dat0 (V0 m ρ) c).arrAt 2 cfg0.N := W1_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and its
    `owes` with nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`; the folded rows' share
    cut in two at the entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m ρ) c (V2 m ρ c) (W2_of_ne m ρ c main_arg0 (by decide)) (W2_of_ne m ρ c main_arg1 (by decide))
      (W2_of_ne m ρ c main_v0 (by decide)) (W2_main_v1 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- The run: from any memory with zero counters every weakly fair execution of @main terminates, nothing faulting,
    and every final state holds every unscoped buffer at the last state's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m ρ c),
     (h c _ (mem_uc main_arg1 (by decide))).trans (W2_main_arg1 m ρ c)⟩) (run_all m ρ)

/-- The run with the result named: the result array ends at what region 1's write-backs leave, computed from the folded
    rows region 0's write-backs left; the arguments end as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c)⟩) (run_all m ρ)

end Cert.Kernel.Run

end
-- ==== Proof.IdealBodies.lean ====
import proofs.«163775_j29703993819992_2_alg».proof.Proof.Gen.KernelIdeal.Launch
import proofs.«163775_j29703993819992_2_alg».proof.Proof.Gen.KernelIdeal.Skeleton
import proofs.«163775_j29703993819992_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two kernel regions, each at the contents it is entered from

The program runs two pipelined kernels one after the other. The first reads a block of 1024 embedding rows and the
whole 4 × 128 weight array and writes a 1024 × 512 block through FOUR stores, one per head, each filling 128
adjacent lanes; the four rectangles tile the block. The second reads a block of 1024 rows and a block of 2048 rows
of ONE AND THE SAME 8192 × 512 array (through two windows) and writes a 1024 × 2048 block through one store.

For each region, at a parameter `V` (the TensorCore's buffers when the region is entered): a window's block at a
grid point, what the body leaves in the output's staging buffer as a function of the input blocks, the body's
triple, and the pipeline's proof data with the body obligation at every point. In the second region the two input
windows hold the shared array at the two halves of the full share.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: scale by each head's weights and normalise -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding rows' staging buffer holds the point's block whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer (fetched once, its block index never moves) holds the whole weight array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rows' block and the weight array, read whole; the four lane groups of the output block, one per head. -/
abbrev rRows : Rect S1024x128 := Rect.unit (s := S1024x128) ![0, 0] S1024x128.size inb_S1024x128_S1024x128_0_0
abbrev rWts : Rect S4x128 := Rect.unit (s := S4x128) ![0, 0] S4x128.size inb_S4x128_S4x128_0_0
abbrev rHead0 : Rect S1024x512 := Rect.unit (s := S1024x512) ![0, 0] S1024x128.size inb_S1024x512_S1024x128_0_0
abbrev rHead1 : Rect S1024x512 := Rect.unit (s := S1024x512) ![0, 128] S1024x128.size inb_S1024x512_S1024x128_0_128
abbrev rHead2 : Rect S1024x512 := Rect.unit (s := S1024x512) ![0, 256] S1024x128.size inb_S1024x512_S1024x128_0_256
abbrev rHead3 : Rect S1024x512 := Rect.unit (s := S1024x512) ![0, 384] S1024x128.size inb_S1024x512_S1024x128_0_384

/-- The output block after the body: the four heads' normalised rows, each in its own 128 lanes (the stores as pieces,
    the last one first). -/
def out0 (x0 : Vec F S1024x128 .f32) (x1 : Vec F S4x128 .f32) : Vec F S1024x512 .bf16 :=
  View.canon [⟨rHead3, k0_pay2 (View.ld x0 rRows) (View.ld x1 rWts)⟩,
    ⟨rHead2, k0_pay1 (k0_pay5 (View.ld x0 rRows) (View.ld x1 rWts)) (k0_pay6 (View.ld x0 rRows) (View.ld x1 rWts))⟩,
    ⟨rHead1, k0_pay4 (View.ld x0 rRows) (View.ld x1 rWts)⟩,
    ⟨rHead0, k0_pay3 (View.ld x0 rRows) (View.ld x1 rWts)⟩]

/-- The four lane groups tile the block, so every entry lies in one of them. -/
theorem cover0 (p0 p1 p2 p3 : Vec F S1024x128 .bf16) (y : S1024x512.Idx) :
    ∃ pc ∈ ([⟨rHead3, p0⟩, ⟨rHead2, p1⟩, ⟨rHead1, p2⟩, ⟨rHead0, p3⟩] : List (View.Piece (Elt F) S1024x512 .bf16)), y ∈ pc.1.set :=
  View.cover_of_tiled [⟨rHead3, p0⟩, ⟨rHead2, p1⟩, ⟨rHead1, p2⟩, ⟨rHead0, p3⟩] S1024x128.size (by rfl) y

set_option maxHeartbeats 1000000 in
/-- The body on whole staging memrefs — the rows' block and the weights at read contents, the output's at anything —
    runs to the continuation holding the inputs as they were and the output at `out0` of them. -/
theorem sound_kernel0 (c : Dev nD) (E : Set ℕ) (i : grid0.Coords) (arg1 : Memref sig .tc .vmem S1024x128 .f32) (harg1 : arg1.IsWhole)
    (arg2 : Memref sig .tc .vmem S4x128 .f32) (harg2 : arg2.IsWhole) (arg3 : Memref sig .tc .vmem S1024x512 .bf16) (harg3 : arg3.IsWhole)
    (x0 : Vec F S1024x128 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0_normalize_kernel i arg1 harg1 arg2 harg2 arg3 harg3) K := by
  simp only [cc0_normalize_kernel_eq_skeleton]; unfold cc0_normalize_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0 _ _ _ _)

/-- Region 0's proof data on core `c`: the arrays as the region finds them; after the body each input's buffer at its
    block and the output's at `out0` of the input blocks; the invariant untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: inner products of the folded rows -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left rows' staging buffer (fetched when the first grid coordinate moves) holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right rows' staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rLeft : Rect S1024x512 := Rect.unit (s := S1024x512) ![0, 0] S1024x512.size inb_S1024x512_S1024x512_0_0
abbrev rRight : Rect S2048x512 := Rect.unit (s := S2048x512) ![0, 0] S2048x512.size inb_S2048x512_S2048x512_0_0
abbrev rProd : Rect S1024x2048 := Rect.unit (s := S1024x2048) ![0, 0] S1024x2048.size inb_S1024x2048_S1024x2048_0_0

/-- The output block after the body: the scaled inner products of the left rows with the right rows (one store). -/
def out1 (x0 : Vec F S1024x512 .bf16) (x1 : Vec F S2048x512 .bf16) : Vec F S1024x2048 .f32 :=
  View.canon [⟨rProd, k1_pay1 (View.ld x0 rLeft) (View.ld x1 rRight)⟩]

theorem cover1 (p0 : Vec F S1024x2048 .f32) (y : S1024x2048.Idx) :
    ∃ pc ∈ ([⟨rProd, p0⟩] : List (View.Piece (Elt F) S1024x2048 .f32)), y ∈ pc.1.set :=
  View.cover_of_tiled [⟨rProd, p0⟩] S1024x2048.size (by rfl) y

set_option maxHeartbeats 1000000 in
/-- The body on whole staging memrefs — the two row blocks at read contents, the output's at anything — runs to the
    continuation holding the inputs as they were and the output at `out1` of them. -/
theorem sound_kernel1 (c : Dev nD) (E : Set ℕ) (i : grid1.Coords) (arg2 : Memref sig .tc .vmem S1024x512 .bf16) (harg2 : arg2.IsWhole)
    (arg3 : Memref sig .tc .vmem S2048x512 .bf16) (harg3 : arg3.IsWhole) (arg4 : Memref sig .tc .vmem S1024x2048 .f32) (harg4 : arg4.IsWhole)
    (x0 : Vec F S1024x512 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1 _)

/-- Region 1's proof data on core `c`: as region 0's, except that the two input windows read ONE array and hold it at
    the left and the right half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.IdealRun.lean ====
import proofs.«163775_j29703993819992_2_alg».proof.Proof.IdealBodies

/-!
# The run of the two regions, with the contents of every buffer at the end

Between the launch and the return the program's four unscoped buffers — the two arguments, the folded rows and
the result — go through three states: as launched; after the first kernel, which writes the folded rows block by
block and leaves the rest; after the second, which writes the result and leaves the rest. Each kernel is a
segment entered from "every unscoped buffer whole at the state's contents" and left at the next state's.

The second kernel reads the folded rows through TWO windows. At its entry the buffer's full share is cut into its
two halves, one per window; at its exit the two halves — both still at the contents found, an input window never
writes — are joined back. Everything else is the launch of the segments and reading the last state.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four unscoped buffers, and region 1's arrays, one by one -/

/-- A core's unscoped buffers are the two arguments, the folded rows and the result. -/
theorem unscopedBufs_four (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold unscopedBufs
  exact bigSep_eq_bigSepL_of_eq [main_arg0, main_arg1, main_v0, main_v1] (by decide) (by decide) _

section Shared
variable (V : (c : Dev nD) → (b : Ref sig .tc) → Buf (Elt F) ((c : Thread nD τ).loc b))

/-- Region 1's arrays: the folded rows at the left half of the full share (the left rows' window), the same buffer at
    the right half (the right rows' window), the result at the full share. -/
theorem arrays1_three (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- Entry of region 1: the unscoped buffers at `V` are its arrays at the entry contents — the folded rows' full share
    cut into its halves — beside the two arguments, which bypass the region. -/
theorem entry1 (c : Dev nD) :
    (unscopedBufs c (V c) : sProp 𝕄) ⊢ iprop((dat1 V c).arrays ((dat1 V c).arrAt · 0) ∗ Pipeline.unscopedRest spec1 c (V c)) := by
  rw [unscopedBufs_four, arrays1_three, unscopedRest1_eq]
  iintro ⟨Ha0, Ha1, Hv0, Hv1⟩
  ihave Hs := (pointsTo_share (PosShare.mem_left_op_right fullShare)).1 $$ Hv0
  icases Hs with ⟨Hl, Hr⟩
  isplitl [Hl Hr Hv1]
  · isplitl [Hl]; · iexact Hl
    isplitl [Hr]; · iexact Hr
    iexact Hv1
  isplitl [Ha0]; · iexact Ha0
  iexact Ha1

/-- Exit of region 1: its arrays at the final contents — the two halves of the folded rows as found, the result as
    written — beside the arguments are the unscoped buffers at any `V'` that has the result's final contents and
    agrees with `V` elsewhere. -/
theorem exit1 (c : Dev nD) (V' : (b : Ref sig .tc) → Buf (Elt F) ((c : Thread nD τ).loc b))
    (h0 : V' main_arg0 = V c main_arg0) (h1 : V' main_arg1 = V c main_arg1) (h2 : V' main_v0 = V c main_v0)
    (h3 : V' main_v1 = (dat1 V c).arrAt 2 cfg1.N) :
    iprop((dat1 V c).arrays ((dat1 V c).arrAt · cfg1.N) ∗ Pipeline.unscopedRest spec1 c (V c)) ⊢ (unscopedBufs c V' : sProp 𝕄) := by
  rw [unscopedBufs_four, arrays1_three, unscopedRest1_eq, h0, h1, h2, h3,
    show (dat1 V c).arrAt 0 cfg1.N = V c main_v0 from ((dat1 V c).arrAt_in 0 rfl _).trans (A_eq1 V c 0),
    show (dat1 V c).arrAt 1 cfg1.N = V c main_v0 from ((dat1 V c).arrAt_in 1 rfl _).trans (A_eq1 V c 1)]
  iintro ⟨⟨Hl, Hr, Hv1⟩, Ha0, Ha1⟩
  isplitl [Ha0]; · iexact Ha0
  isplitl [Ha1]; · iexact Ha1
  isplitl [Hl Hr]
  · iapply (pointsTo_share (PosShare.mem_left_op_right fullShare)).2
    isplitl [Hl]; · iexact Hl
    iexact Hr
  iexact Hv1

end Shared

variable (m : (ℓ : Loc nD τ sig) → Buf (Elt F) ℓ) (ρ : Dev nD → PrngReg)

/-! ## The buffers' contents at the three states -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0 (region 1's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After region 1 (the return): the result at what the pipeline leaves, every other buffer as entered. -/
def W2 (c : Dev nD) : Valuation τ sig (Elt F) :=
  Function.update (W1 m ρ c) (Proc.devRef .tc main_v1) ((dat1 (V1 m ρ) c).arrAt 2 cfg1.N)
abbrev V2 : (c : Dev nD) → (b : Ref sig .tc) → Buf (Elt F) ((c : Thread nD τ).loc b) := fun c b => W2 m ρ c b
theorem W2_main_v1 (c : Dev nD) : W2 m ρ c (Proc.devRef .tc main_v1) = (dat1 (V1 m ρ) c).arrAt 2 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _

/-- The two arguments at the end are as launched: neither region writes them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- The folded rows region 1 reads are what region 0's write-backs left. -/
theorem V1_main_v0 (c : Dev nD) : V1 m ρ c main_v0 = (dat0 (V0 m ρ) c).arrAt 2 cfg0.N := W1_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and its
    `owes` with nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`; the folded rows' share
    cut in two at the entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m ρ) c (V2 m ρ c) (W2_of_ne m ρ c main_arg0 (by decide)) (W2_of_ne m ρ c main_arg1 (by decide))
      (W2_of_ne m ρ c main_v0 (by decide)) (W2_main_v1 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- The run: from any memory with zero counters every weakly fair execution of @main terminates, nothing faulting,
    and every final state holds every unscoped buffer at the last state's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m ρ c),
     (h c _ (mem_uc main_arg1 (by decide))).trans (W2_main_arg1 m ρ c)⟩) (run_all m ρ)

/-- The run with the result named: the result array ends at what region 1's write-backs leave, computed from the folded
    rows region 0's write-backs left; the arguments end as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c)⟩) (run_all m ρ)

end Cert.KernelIdeal.Run

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.BodyValue.lean ====
import proofs.«163775_j29703993819992_2_alg».proof.Proof.Gen.KernelIdeal.Skeleton
import proofs.«163775_j29703993819992_2_alg».proof.Proof.LibKeepdims
import proofs.«163775_j29703993819992_2_alg».proof.Proof.LibRowBroadcast
import proofs.«163775_j29703993819992_2_alg».proof.Proof.LibRowOps

/-!
# The two kernel bodies' arithmetic, read at an index on the extended reals

The first body scales a block of 1024 embedding rows by each of the four heads' weight rows and divides every
scaled row by its Euclidean length clamped below at `ε`; it stores one 1024 × 128 piece per head. The second body
contracts a 1024 × 512 block against a 2048 × 512 block along the axis of length 512 and multiplies by `1/4`.

Each stored value is one pure term of the body's loads. This module reads every such term at an index `(r, d)`:
* the four head pieces as `(x · w_p) / max(√(Σ_e (x · w_p)²), ε)` (`head0_apply` … `head3_apply`);
* the product piece as `(Σ_k a(r,k) · b(c,k)) · 1/4` (`k1_pay1_apply`).

The four head terms differ only in the row of the weight array they cut out, so they are read once, over the row
offset (`headTerm_apply`), from three smaller readings: the scaled block (`scaledBlk_apply`), the clamped length as a
column (`normBlk_apply`), and the division by the column broadcast over lanes (`k0_pay1_apply`). Nothing here
assumes an input finite: every step is the definition of an operation or a re-indexing of a finite sum.
-/

noncomputable section

namespace Cert.BodyValue

open Cert.KernelIdeal Cert.KernelIdeal.Gen Idealize.ShloMosaic Idealize.ShloMosaic.ValueIdx

/-- The clamp `ε`, as the 32-bit word both programs carry. -/
abbrev eps : EReal := Ideal.ofBits .f32 0x2B8CBCCC#32

/-! ## The first body: one head's piece -/

/-- Row `o` of the weight array, broadcast down the 1024 rows and multiplied into the embedding block. -/
def scaledBlk (o : ℕ) (hs : S4x128.Slices ![o, 0] S1x128) (v0 : Vec Ideal S1024x128 .f32) (v1 : Vec Ideal S4x128 .f32) :
    FVec Ideal S1024x128 .f32 :=
  mulf v0 (broadcastTo S1024x128
    (shapeCast S1x128 (shapeCast S128 (extractStridedSlice S1x128 ![o, 0] v1 hs) shapeCasts_S1x128_S128) shapeCasts_S128_S1x128)
    broadcasts_S1x128_S1024x128)

/-- The Euclidean length of every row of a block, clamped below at `ε`, as a column. -/
def normBlk (s : FVec Ideal S1024x128 .f32) : FVec Ideal S1024x1 .f32 :=
  maximumf
    (sqrt (shapeCast S1024x1
      (multiReduction (F := Ideal) .add [1] S1024 (mulf s s) 0x00000000#32 reduces_S1024x128_S1024 (.inl rfl) rfl)
      shapeCasts_S1024_S1024x1))
    (broadcast S1024x1 (Scalar.ofBits (F := Ideal) .f32 0x2B8CBCCC#32))

/-- One head's piece: the block scaled by weight row `o`, each row divided by its clamped length. -/
def headTerm (o : ℕ) (hs : S4x128.Slices ![o, 0] S1x128) (v0 : Vec Ideal S1024x128 .f32) (v1 : Vec Ideal S4x128 .f32) :
    FVec Ideal S1024x128 .bf16 :=
  k0_pay1 (scaledBlk o hs v0 v1) (normBlk (scaledBlk o hs v0 v1))

/-- The scaled block at `(r, d)`: the embedding entry times the weight row's entry at lane `d`. -/
theorem scaledBlk_apply (o : ℕ) (hs : S4x128.Slices ![o, 0] S1x128) (v0 : Vec Ideal S1024x128 .f32) (v1 : Vec Ideal S4x128 .f32)
    (p : Fin 4) (hp : p.val = o) (r : Fin 1024) (d : Fin 128) :
    scaledBlk o hs v0 v1 (ix2 r d) = v0 (ix2 r d) * v1 (ix2 p d) := by
  show v0 (ix2 r d) * broadcastTo S1024x128
    (shapeCast S1x128 (shapeCast S128 (extractStridedSlice S1x128 ![o, 0] v1 hs) shapeCasts_S1x128_S128) shapeCasts_S128_S1x128)
    broadcasts_S1x128_S1024x128 (ix2 r d) = _
  refine congrArg (fun z => v0 (ix2 r d) * z) ?_
  refine (RowBroadcast.broadcastTo_row_apply _ broadcasts_S1x128_S1024x128 r d).trans ?_
  refine (congrFun (shapeCast_shapeCast (extractStridedSlice S1x128 ![o, 0] v1 hs) shapeCasts_S1x128_S128
    shapeCasts_S128_S1x128) (ix2 (0 : Fin 1) d)).trans ?_
  exact slice2_axis0_apply o v1 hs (0 : Fin 1) d p (hp.trans (Nat.add_zero o).symm)

/-- The clamped length at row `r`: the square root of the row's sum of squares, or `ε` if that is larger. -/
theorem normBlk_apply (s : FVec Ideal S1024x128 .f32) (r : Fin 1024) (u : Fin 1) :
    normBlk s (ix2 r u) = max (Ideal.sqrt (∑ e : Fin 128, s (ix2 r e) * s (ix2 r e))) eps := by
  show max (Ideal.sqrt (shapeCast S1024x1
      (multiReduction (F := Ideal) .add [1] S1024 (mulf s s) 0x00000000#32 reduces_S1024x128_S1024 (.inl rfl) rfl)
      shapeCasts_S1024_S1024x1 (ix2 r u))) eps = _
  refine congrArg (fun z => max (Ideal.sqrt z) eps) ?_
  exact (Keepdims.shapeCast_a_a1_apply _ shapeCasts_S1024_S1024x1 r u).trans
    (Keepdims.rowSum_apply (mulf s s) reduces_S1024x128_S1024 rfl r)

/-- The division of a block by a column broadcast over the lanes, at `(r, d)`; the narrowing that follows is the
    identity on the extended reals. -/
theorem k0_pay1_apply (s : FVec Ideal S1024x128 .f32) (n : FVec Ideal S1024x1 .f32) (r : Fin 1024) (d : Fin 128) :
    k0_pay1 s n (ix2 r d) = Ideal.div (s (ix2 r d)) (n (ix2 r (0 : Fin 1))) := by
  show Ideal.div (s (ix2 r d)) (broadcastTo S1024x128 n broadcasts_S1024x1_S1024x128 (ix2 r d)) = _
  exact congrArg (Ideal.div (s (ix2 r d))) (Keepdims.broadcastTo_a1_ab_apply n broadcasts_S1024x1_S1024x128 r d)

/-- One head's piece at `(r, d)`: the scaled entry over the clamped length of the scaled row. -/
theorem headTerm_apply (o : ℕ) (hs : S4x128.Slices ![o, 0] S1x128) (v0 : Vec Ideal S1024x128 .f32) (v1 : Vec Ideal S4x128 .f32)
    (p : Fin 4) (hp : p.val = o) (r : Fin 1024) (d : Fin 128) :
    headTerm o hs v0 v1 (ix2 r d)
      = Ideal.div (v0 (ix2 r d) * v1 (ix2 p d))
          (max (Ideal.sqrt (∑ e : Fin 128, (v0 (ix2 r e) * v1 (ix2 p e)) * (v0 (ix2 r e) * v1 (ix2 p e)))) eps) := by
  unfold headTerm
  rw [k0_pay1_apply, normBlk_apply, scaledBlk_apply o hs v0 v1 p hp r d]
  refine congrArg (fun z => Ideal.div (v0 (ix2 r d) * v1 (ix2 p d)) (max (Ideal.sqrt z) eps)) ?_
  exact Finset.sum_congr rfl fun e _ => by rw [scaledBlk_apply o hs v0 v1 p hp r e]

/-! ### The four stored pieces -/

theorem k0_pay3_eq (v0 : Vec Ideal S1024x128 .f32) (v1 : Vec Ideal S4x128 .f32) :
    k0_pay3 v0 v1 = headTerm 0 slices_S4x128_o0_0_S1x128 v0 v1 := rfl

theorem k0_pay4_eq (v0 : Vec Ideal S1024x128 .f32) (v1 : Vec Ideal S4x128 .f32) :
    k0_pay4 v0 v1 = headTerm 1 slices_S4x128_o1_0_S1x128 v0 v1 := rfl

theorem k0_pay156_eq (v0 : Vec Ideal S1024x128 .f32) (v1 : Vec Ideal S4x128 .f32) :
    k0_pay1 (k0_pay5 v0 v1) (k0_pay6 v0 v1) = headTerm 2 slices_S4x128_o2_0_S1x128 v0 v1 := rfl

theorem k0_pay2_eq (v0 : Vec Ideal S1024x128 .f32) (v1 : Vec Ideal S4x128 .f32) :
    k0_pay2 v0 v1 = headTerm 3 slices_S4x128_o3_0_S1x128 v0 v1 := rfl

/-- Head 0's piece at `(r, d)`. -/
theorem head0_apply (v0 : Vec Ideal S1024x128 .f32) (v1 : Vec Ideal S4x128 .f32) (r : Fin 1024) (d : Fin 128) :
    k0_pay3 v0 v1 (ix2 r d)
      = Ideal.div (v0 (ix2 r d) * v1 (ix2 (0 : Fin 4) d))
          (max (Ideal.sqrt (∑ e : Fin 128, (v0 (ix2 r e) * v1 (ix2 (0 : Fin 4) e)) * (v0 (ix2 r e) * v1 (ix2 (0 : Fin 4) e)))) eps) :=
  (congrFun (k0_pay3_eq v0 v1) _).trans (headTerm_apply 0 _ v0 v1 0 rfl r d)

/-- Head 1's piece at `(r, d)`. -/
theorem head1_apply (v0 : Vec Ideal S1024x128 .f32) (v1 : Vec Ideal S4x128 .f32) (r : Fin 1024) (d : Fin 128) :
    k0_pay4 v0 v1 (ix2 r d)
      = Ideal.div (v0 (ix2 r d) * v1 (ix2 (1 : Fin 4) d))
          (max (Ideal.sqrt (∑ e : Fin 128, (v0 (ix2 r e) * v1 (ix2 (1 : Fin 4) e)) * (v0 (ix2 r e) * v1 (ix2 (1 : Fin 4) e)))) eps) :=
  (congrFun (k0_pay4_eq v0 v1) _).trans (headTerm_apply 1 _ v0 v1 1 rfl r d)

/-- Head 2's piece at `(r, d)`: the body computes it in two parts, the scaled block and its clamped lengths first. -/
theorem head2_apply (v0 : Vec Ideal S1024x128 .f32) (v1 : Vec Ideal S4x128 .f32) (r : Fin 1024) (d : Fin 128) :
    k0_pay1 (k0_pay5 v0 v1) (k0_pay6 v0 v1) (ix2 r d)
      = Ideal.div (v0 (ix2 r d) * v1 (ix2 (2 : Fin 4) d))
          (max (Ideal.sqrt (∑ e : Fin 128, (v0 (ix2 r e) * v1 (ix2 (2 : Fin 4) e)) * (v0 (ix2 r e) * v1 (ix2 (2 : Fin 4) e)))) eps) :=
  (congrFun (k0_pay156_eq v0 v1) _).trans (headTerm_apply 2 _ v0 v1 2 rfl r d)

/-- Head 3's piece at `(r, d)`. -/
theorem head3_apply (v0 : Vec Ideal S1024x128 .f32) (v1 : Vec Ideal S4x128 .f32) (r : Fin 1024) (d : Fin 128) :
    k0_pay2 v0 v1 (ix2 r d)
      = Ideal.div (v0 (ix2 r d) * v1 (ix2 (3 : Fin 4) d))
          (max (Ideal.sqrt (∑ e : Fin 128, (v0 (ix2 r e) * v1 (ix2 (3 : Fin 4) e)) * (v0 (ix2 r e) * v1 (ix2 (3 : Fin 4) e)))) eps) :=
  (congrFun (k0_pay2_eq v0 v1) _).trans (headTerm_apply 3 _ v0 v1 3 rfl r d)

/-! ## The second body: the product piece -/

/-- The product's dimension record: both operands contract their second axis. -/
abbrev prodDims : DotDims S1024x512 S2048x512 S1024x2048 := dot_S1024x512_S2048x512_S1024x2048_1_1_0_0_n_n

theorem prodDims_lhs0 (i : S1024x2048.Idx) (q : prodDims.contr.Idx) : (prodDims.lhsIdx i q 0).val = (i 0).val := by
  unfold DotDims.lhsIdx
  rw [dif_neg (show ¬(0 : Fin S1024x512.rank) ∈ prodDims.lhsBatch by decide),
    dif_pos (show (0 : Fin S1024x512.rank) ∈ prodDims.lhsNonContracting by decide)]
  rfl

theorem prodDims_rhs0 (i : S1024x2048.Idx) (q : prodDims.contr.Idx) : (prodDims.rhsIdx i q 0).val = (i 1).val := by
  unfold DotDims.rhsIdx
  rw [dif_neg (show ¬(0 : Fin S2048x512.rank) ∈ prodDims.rhsBatch by decide),
    dif_pos (show (0 : Fin S2048x512.rank) ∈ prodDims.rhsNonContracting by decide)]
  rfl

/-- The product piece at `(r, c)`: the inner product of row `r` of the left block and row `c` of the right block
    over the axis of length 512, times the word of `1/4`. -/
theorem k1_pay1_apply (v0 : Vec Ideal S1024x512 .bf16) (v2 : Vec Ideal S2048x512 .bf16) (r : Fin 1024) (c : Fin 2048) :
    k1_pay1 v0 v2 (ix2 r c) = (∑ k : Fin 512, v0 (ix2 r k) * v2 (ix2 c k)) * Ideal.ofBits .f32 0x3E800000#32 := by
  show matmul prodDims none (shapeCast S1024x512 v0 shapeCasts_S1024x512_S1024x512)
      (shapeCast S2048x512 v2 shapeCasts_S2048x512_S2048x512) (constant (F := Ideal) S1024x2048 .f32 0x00000000#32) (ix2 r c)
    * Ideal.ofBits .f32 0x3E800000#32 = _
  rw [shapeCast_self, shapeCast_self]
  refine congrArg (fun z => z * Ideal.ofBits .f32 0x3E800000#32) ?_
  exact RowOps.matmulT_zero_apply prodDims none rfl rfl prodDims_lhs0
    (fun i q => prodDims.lhsIdx_val_of_single rfl i q) prodDims_rhs0
    (fun i q => prodDims.rhsIdx_val_of_single rfl i q) (v0 : FVec Ideal S1024x512 .bf16) (v2 : FVec Ideal S2048x512 .bf16) r c

end Cert.BodyValue

end
-- ==== Proof.HeadSpec.lean ====
import Idealize.ShloMosaic.PureOps.Ideal
import Idealize.ShloMosaic.PureOps.Ideal.Laws

/-!
# Mean over heads of cosine similarities: the function both programs compute

For embeddings `x : 8192 × 128` and head weights `w : 4 × 128`, head `p` scales row `n` lane by lane,
`s_p(n,d) = x(n,d)·w(p,d)`, and divides it by its Euclidean length clamped below at `ε`:
`u_p(n,d) = s_p(n,d) / max(√(Σ_d s_p(n,d)²), ε)`. The result at `(n,m)` is the mean over the four heads of the
inner products `Σ_d u_p(n,d)·u_p(m,d)`.

Two arrangements of that number are stated here, on the extended reals:
* `attn`: the double sum over heads and lanes, divided by `4`;
* `attnFolded`: the four heads laid side by side along one axis of length `512` (`folded`), ONE sum over that
  axis, times `1/4`.
They are equal with no finiteness assumption: regrouping a finite sum uses only that addition on the extended
reals is commutative and associative, and dividing by the real `4` is multiplying by `1/4` on every extended real.
-/

noncomputable section

namespace Cert.HeadSpec

open Idealize.ShloMosaic

/-- The clamp `ε`: the same 32-bit pattern in both programs, never evaluated. -/
abbrev eps : EReal := Ideal.ofBits .f32 0x2B8CBCCC#32

variable (x : Fin 8192 → Fin 128 → EReal) (w : Fin 4 → Fin 128 → EReal)

/-- Row `n` scaled by head `p`'s weights, lane `d`. -/
def scaled (p : Fin 4) (n : Fin 8192) (d : Fin 128) : EReal := x n d * w p d

/-- The length of head `p`'s scaled row `n`, clamped below at `ε`. -/
def clampedNorm (p : Fin 4) (n : Fin 8192) : EReal :=
  max (Ideal.sqrt (∑ d : Fin 128, scaled x w p n d * scaled x w p n d)) eps

/-- Head `p`'s normalised row `n`, lane `d`. -/
def unitRow (p : Fin 4) (n : Fin 8192) (d : Fin 128) : EReal :=
  Ideal.div (scaled x w p n d) (clampedNorm x w p n)

/-- The mean over heads of the inner products of rows `n` and `m`: heads and lanes summed apart, divided by `4`. -/
def attn (n m : Fin 8192) : EReal :=
  Ideal.div (∑ p : Fin 4, ∑ d : Fin 128, unitRow x w p n d * unitRow x w p m d) (Ideal.ofBits .f32 0x40800000#32)

/-- The four heads' normalised rows side by side: column `k` is lane `k % 128` of head `k / 128`. -/
def folded (n : Fin 8192) (k : Fin 512) : EReal :=
  unitRow x w ⟨k.val / 128, by omega⟩ n ⟨k.val % 128, Nat.mod_lt _ (by decide)⟩

/-- The same mean with the heads folded into ONE contraction of length `512`, times `1/4`. -/
def attnFolded (n m : Fin 8192) : EReal :=
  (∑ k : Fin 512, folded x w n k * folded x w m k) * Ideal.ofBits .f32 0x3E800000#32

end Cert.HeadSpec

end
-- ==== Proof.IdealBlocks0.lean ====
import proofs.«163775_j29703993819992_2_alg».proof.Proof.IdealBodies
import proofs.«163775_j29703993819992_2_alg».proof.Proof.BodyValue
import proofs.«163775_j29703993819992_2_alg».proof.Proof.HeadSpec
import Idealize.ShloMosaic.Lib.Pipeline.Value

/-!
# Region 0, from blocks to the array: the folded, normalised rows

The first kernel runs over 8 grid points. At point `t` it reads rows `1024·t …` of the embeddings and the whole
weight array, and writes rows `1024·t …` of the 8192 × 512 array, all 512 lanes. This module shows that after the
region that array holds, at `(n, k)`, head `k / 128`'s normalised row `n` at lane `k % 128` (`Cert.HeadSpec.folded` of
the two arrays as the region finds them):

* the body's four stored pieces are ONE function of the block index (`out0_eq`): the piece of head `p` sits in lanes
  `128·p …`, and its entry at `(r, d)` is head `p`'s normalised row `r` at lane `d`;
* the three windows' block indices at a point, decided once over the grid (`index_facts0`);
* each input block read at an index is the array read at the shifted index (`iblk0_rows`, `iblk0_wts`);
* so what point `t` writes back is block `t` of the folded array (`flushed0`);
* the blocks cover the array: the point that covers row `n` is `n / 1024` (`covered0`);
* hence the array after the region (`final0`).

No entry is assumed finite: a row's sum of squares is re-indexed, never rearranged.
-/

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)

/-! ## One folded entry, over a row and the weight array -/

/-- A row `ρ` scaled lane by lane by a weight row `ω` and divided by its clamped Euclidean length, at lane `d`. -/
def unitOf (ρ ω : Fin 128 → EReal) (d : Fin 128) : EReal :=
  Ideal.div (ρ d * ω d) (max (Ideal.sqrt (∑ e : Fin 128, (ρ e * ω e) * (ρ e * ω e))) Cert.HeadSpec.eps)

/-- Column `k` of the four heads laid side by side: head `k / 128` at lane `k % 128`. -/
def foldedAt (ρ : Fin 128 → EReal) (ω : Fin 4 → Fin 128 → EReal) (k : ℕ) (hk : k < 512) : EReal :=
  unitOf ρ (ω ⟨k / 128, by omega⟩) ⟨k % 128, by omega⟩

theorem foldedAt_congr {ρ ρ' : Fin 128 → EReal} {ω ω' : Fin 4 → Fin 128 → EReal} {k k' : ℕ} {hk : k < 512} {hk' : k' < 512}
    (hρ : ρ = ρ') (hω : ω = ω') (hkk : k = k') : foldedAt ρ ω k hk = foldedAt ρ' ω' k' hk' := by
  subst hρ hω hkk; rfl

/-- Column `128·p + d` is head `p` at lane `d`. -/
theorem foldedAt_eq (ρ : Fin 128 → EReal) (ω : Fin 4 → Fin 128 → EReal) (k : ℕ) (hk : k < 512) (p : Fin 4) (d : Fin 128)
    (h : k = 128 * p.val + d.val) :
    foldedAt ρ ω k hk
      = Ideal.div (ρ d * ω p d) (max (Ideal.sqrt (∑ e : Fin 128, (ρ e * ω p e) * (ρ e * ω p e))) Cert.HeadSpec.eps) := by
  have e1 : (⟨k / 128, by omega⟩ : Fin 4) = p := Fin.ext (by show k / 128 = p.val; have := d.isLt; omega)
  have e2 : (⟨k % 128, by omega⟩ : Fin 128) = d := Fin.ext (by show k % 128 = d.val; have := d.isLt; omega)
  unfold foldedAt
  rw [e1, e2]
  rfl

/-- The folded, normalised rows of an embedding array and a weight array. -/
def foldedOf (a0 : S8192x128.Idx → EReal) (a1 : S4x128.Idx → EReal) : S8192x512.Idx → EReal := fun i =>
  Cert.HeadSpec.folded (fun n d => a0 (ix2 n d)) (fun p d => a1 (ix2 p d)) (i 0) (i 1)

theorem foldedOf_apply (a0 : S8192x128.Idx → EReal) (a1 : S4x128.Idx → EReal) (i : S8192x512.Idx) :
    foldedOf a0 a1 i = foldedAt (fun e => a0 (ix2 (i 0) e)) (fun p e => a1 (ix2 p e)) (i 1).val (i 1).isLt := rfl

/-! ## The body's four pieces as one function of the block index -/

/-- What the body leaves in the output block, at `(r, k)`: column `k` of the folded row `r` of the rows' block. -/
def blockFn (x0 : Vec Ideal S1024x128 .f32) (x1 : Vec Ideal S4x128 .f32) : Vec Ideal S1024x512 .bf16 := fun y =>
  foldedAt (fun e => x0 (ix2 (⟨(y 0).val, (y 0).isLt⟩ : Fin 1024) e)) (fun p e => x1 (ix2 p e)) (y 1).val (y 1).isLt

/-- The block function at row `r`, column `128·p + d`. -/
theorem blockFn_at (x0 : Vec Ideal S1024x128 .f32) (x1 : Vec Ideal S4x128 .f32) (y : S1024x512.Idx)
    (r : Fin 1024) (p : Fin 4) (d : Fin 128) (h0 : (y 0).val = r.val) (h1 : (y 1).val = 128 * p.val + d.val) :
    blockFn x0 x1 y
      = Ideal.div (x0 (ix2 r d) * x1 (ix2 p d))
          (max (Ideal.sqrt (∑ e : Fin 128, (x0 (ix2 r e) * x1 (ix2 p e)) * (x0 (ix2 r e) * x1 (ix2 p e)))) Cert.HeadSpec.eps) := by
  have er : (⟨(y 0).val, (y 0).isLt⟩ : Fin 1024) = r := Fin.ext h0
  unfold blockFn
  rw [er]
  exact foldedAt_eq _ _ _ _ p d h1

theorem zeroOffsets : (![0, 0] : Fin 2 → Nat) = fun _ => 0 := funext fun a => by fin_cases a <;> rfl

/-- The two whole loads read their blocks. -/
theorem ld_rows (x0 : Vec Ideal S1024x128 .f32) : View.ld x0 rRows = x0 := View.ld_unit_zero zeroOffsets _ x0
theorem ld_wts (x1 : Vec Ideal S4x128 .f32) : View.ld x1 rWts = x1 := View.ld_unit_zero zeroOffsets _ x1

/-- Head 0's piece, in lanes `0 …`. -/
theorem piece0 (x0 : Vec Ideal S1024x128 .f32) (x1 : Vec Ideal S4x128 .f32) (x : S1024x128.Idx) :
    k0_pay3 (View.ld x0 rRows) (View.ld x1 rWts) x = blockFn x0 x1 (rHead0.emb x) := by
  obtain ⟨r, d, rfl⟩ : ∃ (r : Fin 1024) (d : Fin 128), x = ix2 r d := ⟨x 0, x 1, eq_ix2 x⟩
  rw [ld_rows, ld_wts]
  exact (Cert.BodyValue.head0_apply x0 x1 r d).trans (blockFn_at x0 x1 _ r 0 d
    (by show 0 + 1 * r.val = r.val; omega) (by show 0 + 1 * d.val = 128 * 0 + d.val; omega)).symm

/-- Head 1's piece, in lanes `128 …`. -/
theorem piece1 (x0 : Vec Ideal S1024x128 .f32) (x1 : Vec Ideal S4x128 .f32) (x : S1024x128.Idx) :
    k0_pay4 (View.ld x0 rRows) (View.ld x1 rWts) x = blockFn x0 x1 (rHead1.emb x) := by
  obtain ⟨r, d, rfl⟩ : ∃ (r : Fin 1024) (d : Fin 128), x = ix2 r d := ⟨x 0, x 1, eq_ix2 x⟩
  rw [ld_rows, ld_wts]
  exact (Cert.BodyValue.head1_apply x0 x1 r d).trans (blockFn_at x0 x1 _ r 1 d
    (by show 0 + 1 * r.val = r.val; omega) (by show 128 + 1 * d.val = 128 * 1 + d.val; omega)).symm

/-- Head 2's piece, in lanes `256 …`. -/
theorem piece2 (x0 : Vec Ideal S1024x128 .f32) (x1 : Vec Ideal S4x128 .f32) (x : S1024x128.Idx) :
    k0_pay1 (k0_pay5 (View.ld x0 rRows) (View.ld x1 rWts)) (k0_pay6 (View.ld x0 rRows) (View.ld x1 rWts)) x
      = blockFn x0 x1 (rHead2.emb x) := by
  obtain ⟨r, d, rfl⟩ : ∃ (r : Fin 1024) (d : Fin 128), x = ix2 r d := ⟨x 0, x 1, eq_ix2 x⟩
  rw [ld_rows, ld_wts]
  exact (Cert.BodyValue.head2_apply x0 x1 r d).trans (blockFn_at x0 x1 _ r 2 d
    (by show 0 + 1 * r.val = r.val; omega) (by show 256 + 1 * d.val = 128 * 2 + d.val; omega)).symm

/-- Head 3's piece, in lanes `384 …`. -/
theorem piece3 (x0 : Vec Ideal S1024x128 .f32) (x1 : Vec Ideal S4x128 .f32) (x : S1024x128.Idx) :
    k0_pay2 (View.ld x0 rRows) (View.ld x1 rWts) x = blockFn x0 x1 (rHead3.emb x) := by
  obtain ⟨r, d, rfl⟩ : ∃ (r : Fin 1024) (d : Fin 128), x = ix2 r d := ⟨x 0, x 1, eq_ix2 x⟩
  rw [ld_rows, ld_wts]
  exact (Cert.BodyValue.head3_apply x0 x1 r d).trans (blockFn_at x0 x1 _ r 3 d
    (by show 0 + 1 * r.val = r.val; omega) (by show 384 + 1 * d.val = 128 * 3 + d.val; omega)).symm

/-- The output block after the body is the block function: each of the four pieces is its restriction to the piece's
    lanes, and the pieces cover the block. -/
theorem out0_eq (x0 : Vec Ideal S1024x128 .f32) (x1 : Vec Ideal S4x128 .f32) : out0 x0 x1 = blockFn x0 x1 := by
  funext y
  unfold out0
  refine View.canon_apply_of_pieces (blockFn x0 x1) _ ?_ y (cover0 _ _ _ _ y)
  intro p hp x
  simp only [List.mem_cons, List.not_mem_nil, or_false] at hp
  rcases hp with rfl | rfl | rfl | rfl
  · exact piece3 x0 x1 x
  · exact piece2 x0 x1 x
  · exact piece1 x0 x1 x
  · exact piece0 x0 x1 x

/-! ## The windows' blocks at a grid point -/

/-- The printed index maps, decided over the 8 points: the rows' window and the output's window are at block `t` of
    their first axis and block `0` of the second; the weights' window never moves. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The rows' block at point `t` is rows `1024·t …` of the embedding array. -/
theorem iblk0_rows (c : Dev nD) (t : Fin cfg0.N) (x : S1024x128.Idx) (k : S8192x128.Idx)
    (hk0 : (k 0).val = 1024 * t.val + (x 0).val) (hk1 : (k 1).val = (x 1).val) :
    (iblk0 V c 0 t : Vec Ideal S1024x128 .f32) x = (V c main_arg0 : S8192x128.Idx → EReal) k := by
  obtain ⟨f0, f1, -, -, -, -⟩ := index_facts0 t
  unfold iblk0
  rw [View.read_apply]
  show V c main_arg0 _ = V c main_arg0 _
  congr 1
  funext a
  apply Fin.ext
  match a with
  | ⟨0, _⟩ => show win0_0.index t (0 : Fin 2) * 1024 + 1 * (x 0).val = (k 0).val; rw [f0, hk0]; omega
  | ⟨1, _⟩ => show win0_0.index t (1 : Fin 2) * 128 + 1 * (x 1).val = (k 1).val; rw [f1, hk1]; omega

/-- The weights' block at every point is the whole weight array. -/
theorem iblk0_wts (c : Dev nD) (t : Fin cfg0.N) (x : S4x128.Idx) (k : S4x128.Idx)
    (hk0 : (k 0).val = (x 0).val) (hk1 : (k 1).val = (x 1).val) :
    (iblk0 V c 1 t : Vec Ideal S4x128 .f32) x = (V c main_arg1 : S4x128.Idx → EReal) k := by
  obtain ⟨-, -, f2, f3, -, -⟩ := index_facts0 t
  unfold iblk0
  rw [View.read_apply]
  show V c main_arg1 _ = V c main_arg1 _
  congr 1
  funext a
  apply Fin.ext
  match a with
  | ⟨0, _⟩ => show win0_1.index t (0 : Fin 2) * 4 + 1 * (x 0).val = (k 0).val; rw [f2, hk0]; omega
  | ⟨1, _⟩ => show win0_1.index t (1 : Fin 2) * 128 + 1 * (x 1).val = (k 1).val; rw [f3, hk1]; omega

/-- The block function of the two input blocks at point `t`, at a block index `y`, is the folded array at row
    `1024·t + y₀`, column `y₁`. -/
theorem blockFn_iblk (c : Dev nD) (t : Fin cfg0.N) (y : S1024x512.Idx) (i : S8192x512.Idx)
    (h0 : (i 0).val = 1024 * t.val + (y 0).val) (h1 : (i 1).val = (y 1).val) :
    blockFn (iblk0 V c 0 t) (iblk0 V c 1 t) y = foldedOf (V c main_arg0) (V c main_arg1) i := by
  rw [foldedOf_apply]
  unfold blockFn
  exact foldedAt_congr
    (funext fun e => iblk0_rows V c t (ix2 (⟨(y 0).val, (y 0).isLt⟩ : Fin 1024) e) (ix2 (i 0) e) h0 rfl)
    (funext fun p => funext fun e => iblk0_wts V c t (ix2 p e) (ix2 p e) rfl rfl) h1.symm

/-! ## What a point writes back, the cover, and the array after the region -/

/-- What point `t` writes back is block `t` of the folded array of the two arrays as the region finds them. -/
theorem flushed0 (c : Dev nD) (t : Fin cfg0.N) :
    (dat0 V c).flushed 2 t
      = ((cfg0.win 2).blk t).view.read (Elt Ideal) (foldedOf (V c main_arg0) (V c main_arg1)) := by
  show (cfg0.win 2).cut (grid0.coords t) ((dat0 V c).after 2 t) = _
  rw [after0_2, out0_eq]
  obtain ⟨-, -, -, -, f4, f5⟩ := index_facts0 t
  funext j
  show blockFn (iblk0 V c 0 t) (iblk0 V c 1 t) j
    = foldedOf (V c main_arg0) (V c main_arg1) (((cfg0.win 2).blk t).view.emb j)
  refine blockFn_iblk V c t j _ ?_ ?_
  · show win0_2.index t (0 : Fin 2) * 1024 + 1 * (j 0).val = 1024 * t.val + (j 0).val
    rw [f4]; omega
  · show win0_2.index t (1 : Fin 2) * 512 + 1 * (j 1).val = (j 1).val
    rw [f5]; omega

/-- An index of the array is in point `t`'s block iff each coordinate is in the block's range on its axis. -/
theorem mem_blk0 (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- Every index of the array is in some point's block: row `n` in that of point `n / 1024`. -/
theorem covered0 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  let t : Fin cfg0.N := ⟨(i 0).val / 1024, Nat.lt_of_lt_of_eq (by omega) hN.symm⟩
  obtain ⟨-, -, -, -, f4, f5⟩ := index_facts0 t
  have ht : t.val = (i 0).val / 1024 := rfl
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    rw [f4, ht]; omega
  | ⟨1, _⟩ =>
    show win0_2.index t (1 : Fin 2) * 512 ≤ (i 1).val ∧ (i 1).val < win0_2.index t (1 : Fin 2) * 512 + 512
    rw [f5]; omega

/-- THE ARRAY AFTER REGION 0: the folded, normalised rows of the embedding array and the weight array as the region
    finds them. -/
theorem final0 (c : Dev nD) : (dat0 (F := Ideal) V c).arrAt 2 cfg0.N = foldedOf (V c main_arg0) (V c main_arg1) :=
  (dat0 V c).arrAt_eq_of_cover 2 _ (fun t _ => flushed0 V c t) covered0

end Cert.KernelIdeal.Run

end
-- ==== Proof.IdealBlocks1.lean ====
import proofs.«163775_j29703993819992_2_alg».proof.Proof.IdealBodies
import proofs.«163775_j29703993819992_2_alg».proof.Proof.BodyValue
import Idealize.ShloMosaic.Lib.Pipeline.Value
import Idealize.ShloMosaic.Lib.ValueIdx

/-!
# Region 1, from blocks to the array: the product array is every row against every row

The second kernel runs on an 8 × 4 grid. At a point with block indices `(a, b)` it reads rows `1024·a …` of the
folded array through its first window and rows `2048·b …` of the SAME array through its second window (all 512
lanes of each), and writes the block of the product array at rows `1024·a …`, columns `2048·b …`: entry `(r, c)`
of that block is the inner product over the 512 lanes of row `r` of the first block and row `c` of the second,
times the word of `1/4`. So every point writes its block of ONE function of the folded array,
`prodOf E (n, m) = (Σ_k E(n,k) · E(m,k)) · 1/4`; the 32 blocks tile the 8192 × 8192 array; hence the array ends
holding `prodOf` of the folded array as the region finds it.
-/

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Row `n` against row `m` of an 8192 × 512 array over the 512 lanes, times the word of `1/4`. -/
def prodOf (E : S8192x512.Idx → EReal) : S8192x8192.Idx → EReal :=
  fun i => (∑ k : Fin 512, E (ix2 (i 0) k) * E (ix2 (i 1) k)) * Ideal.ofBits .f32 0x3E800000#32

theorem wholeBlockOffsets1 : (![0, 0] : Fin 2 → Nat) = fun _ => 0 := funext fun a => by fin_cases a <;> rfl

/-- The body's product piece over blocks that are rows `1024·a …` and rows `2048·b …` of one array `E`: its entry at
    `j` is `prodOf E` at the array index `(1024·a + j₀, 2048·b + j₁)`. -/
theorem prod_point (x0 : Vec Ideal S1024x512 .bf16) (x1 : Vec Ideal S2048x512 .bf16) (E : S8192x512.Idx → EReal) (a b : ℕ)
    (h0 : ∀ (x : S1024x512.Idx) (k : S8192x512.Idx), (k 0).val = a * 1024 + (x 0).val → (k 1).val = (x 1).val → x0 x = E k)
    (h1 : ∀ (x : S2048x512.Idx) (k : S8192x512.Idx), (k 0).val = b * 2048 + (x 0).val → (k 1).val = (x 1).val → x1 x = E k)
    (j : S1024x2048.Idx) (i : S8192x8192.Idx) (hi0 : (i 0).val = a * 1024 + (j 0).val) (hi1 : (i 1).val = b * 2048 + (j 1).val) :
    k1_pay1 x0 x1 j = prodOf E i := by
  obtain ⟨r, cc, rfl⟩ : ∃ (r : Fin 1024) (cc : Fin 2048), j = ix2 r cc := ⟨j 0, j 1, eq_ix2 j⟩
  rw [Cert.BodyValue.k1_pay1_apply]
  unfold prodOf
  refine congrArg (fun z => z * Ideal.ofBits .f32 0x3E800000#32) (Finset.sum_congr rfl fun k _ => ?_)
  rw [h0 (ix2 r k) (ix2 (i 0) k) hi0 rfl, h1 (ix2 cc k) (ix2 (i 1) k) hi1 rfl]

variable (V : (c : Dev nD) → (b : Ref sig .tc) → Buf (Elt Ideal) ((c : Thread nD τ).loc b))

/-- The printed index maps, decided over the 32 points: the first window's block row is the output's block row, the
    second window's block row is the output's block column, neither input window moves along the lanes, and the
    output's block indices stay inside the 8 × 4 grid of blocks. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7 ∧ win1_2.index t (1 : Fin 2) ≤ 3 :=
  (by decide +kernel : ∀ t : Fin grid1.N, _)

/-- Every block of the 8 × 4 grid of output blocks is some point's. -/
theorem idx_onto1 : ∀ (q0 : Fin 8) (q1 : Fin 4), ∃ t : Fin cfg1.N, win1_2.index t = ![q0.val, q1.val] :=
  (by decide +kernel : ∀ (q0 : Fin 8) (q1 : Fin 4), ∃ t : Fin grid1.N, win1_2.index t = ![q0.val, q1.val])

/-- The first window's block at point `t` is rows `1024·a …` of the folded array, `a` the output's block row. -/
theorem left_apply (c : Dev nD) (t : Fin cfg1.N) (x : S1024x512.Idx) (k : S8192x512.Idx)
    (hk0 : (k 0).val = win1_2.index t (0 : Fin 2) * 1024 + (x 0).val) (hk1 : (k 1).val = (x 1).val) :
    (iblk1 V c 0 t : Vec Ideal S1024x512 .bf16) x = (V c main_v0 : S8192x512.Idx → EReal) k := by
  obtain ⟨e0, e1, -⟩ := idx_facts1 t
  unfold iblk1
  rw [View.read_apply]
  show V c main_v0 _ = V c main_v0 k
  refine congrArg (V c main_v0) (funext fun a => Fin.ext ?_)
  match a with
  | ⟨0, _⟩ => show win1_0.index t (0 : Fin 2) * 1024 + 1 * (x 0).val = (k 0).val; omega
  | ⟨1, _⟩ => show win1_0.index t (1 : Fin 2) * 512 + 1 * (x 1).val = (k 1).val; omega

/-- The second window's block at point `t` is rows `2048·b …` of the folded array, `b` the output's block column. -/
theorem right_apply (c : Dev nD) (t : Fin cfg1.N) (x : S2048x512.Idx) (k : S8192x512.Idx)
    (hk0 : (k 0).val = win1_2.index t (1 : Fin 2) * 2048 + (x 0).val) (hk1 : (k 1).val = (x 1).val) :
    (iblk1 V c 1 t : Vec Ideal S2048x512 .bf16) x = (V c main_v0 : S8192x512.Idx → EReal) k := by
  obtain ⟨-, -, e2, e3, -⟩ := idx_facts1 t
  unfold iblk1
  rw [View.read_apply]
  show V c main_v0 _ = V c main_v0 k
  refine congrArg (V c main_v0) (funext fun a => Fin.ext ?_)
  match a with
  | ⟨0, _⟩ => show win1_1.index t (0 : Fin 2) * 2048 + 1 * (x 0).val = (k 0).val; omega
  | ⟨1, _⟩ => show win1_1.index t (1 : Fin 2) * 512 + 1 * (x 1).val = (k 1).val; omega

/-- What point `t` writes back is its block of `prodOf` of the folded array as the region finds it. -/
theorem flushed1_eq (c : Dev nD) (t : Fin cfg1.N) :
    (dat1 (F := Ideal) V c).flushed 2 t = ((cfg1.win 2).blk t).view.read (Elt Ideal) (prodOf (V c main_v0)) := by
  show (cfg1.win 2).cut (grid1.coords t) ((dat1 V c).after 2 t) = _
  rw [after1_2]
  unfold out1
  rw [View.canon_unit_zero wholeBlockOffsets1]
  simp only [View.ld_unit_zero (S := S1024x512) wholeBlockOffsets1, View.ld_unit_zero (S := S2048x512) wholeBlockOffsets1]
  funext j
  show k1_pay1 (iblk1 V c 0 t) (iblk1 V c 1 t) j = prodOf (V c main_v0) (((cfg1.win 2).blk t).view.emb j)
  refine prod_point (iblk1 V c 0 t) (iblk1 V c 1 t) (V c main_v0) (win1_2.index t (0 : Fin 2)) (win1_2.index t (1 : Fin 2))
    (fun x k hk0 hk1 => left_apply V c t x k hk0 hk1) (fun x k hk0 hk1 => right_apply V c t x k hk0 hk1) j _ ?_ ?_
  · show win1_2.index t (0 : Fin 2) * 1024 + 1 * (j 0).val = _; omega
  · show win1_2.index t (1 : Fin 2) * 2048 + 1 * (j 1).val = _; omega

/-- An index of the product array is in point `t`'s block iff each coordinate is in the block's range on its axis. -/
theorem mem_blk1 (t : Fin cfg1.N) (i : S8192x8192.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v1).slice (win1_2.rect t)).set ↔ _
  rw [View.set_slice_whole, Rect.mem_set_unit]
  exact Iff.rfl

/-- The 32 blocks tile the product array: entry `(n, m)` lies in the block with indices `(n / 1024, m / 2048)`. -/
theorem blocks_cover1 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 2048, by omega⟩
  have q0 : win1_2.index t (0 : Fin 2) = (i 0).val / 1024 := congrFun ht 0
  have q1 : win1_2.index t (1 : Fin 2) = (i 1).val / 2048 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- The product array after the region: `prodOf` of the folded array as the region finds it. -/
theorem final1 (c : Dev nD) : (dat1 (F := Ideal) V c).arrAt 2 cfg1.N = prodOf (V c main_v0) :=
  (dat1 (F := Ideal) V c).arrAt_eq_of_cover 2 (prodOf (V c main_v0)) (fun t _ => flushed1_eq V c t) blocks_cover1

end Cert.KernelIdeal.Run

end
-- ==== Proof.HeadAlgebra.lean ====
import proofs.«163775_j29703993819992_2_alg».proof.Proof.HeadSpec
import Mathlib.Algebra.BigOperators.Fin
import Mathlib.Logic.Equiv.Fin.Basic

/-!
# The folded contraction is the double sum over heads and lanes

Two facts make `attnFolded = attn`, with no finiteness assumption:
* a sum over `Fin 512` of `g (k / 128) (k % 128)` is the double sum of `g p d` over `Fin 4 × Fin 128`
  (the pair `(p, d)` sits at `k = d + 128 · p`): a re-indexing of a finite sum in a commutative monoid;
* the two 32-bit words denote the reals `1/4` and `4`, and dividing any extended real by the real `4` is
  multiplying it by `1/4`.
-/

noncomputable section

namespace Cert.HeadSpec

open Idealize.ShloMosaic

/-- Re-indexing: one sum over `Fin 512`, reading column `k` as lane `k % 128` of head `k / 128`, is the double
    sum over heads and lanes. Holds in every additive commutative monoid. -/
theorem sum_fold {M : Type*} [AddCommMonoid M] (g : Fin 4 → Fin 128 → M) :
    (∑ k : Fin 512, g ⟨k.val / 128, by omega⟩ ⟨k.val % 128, Nat.mod_lt _ (by decide)⟩)
      = ∑ p : Fin 4, ∑ d : Fin 128, g p d := by
  rw [← Fintype.sum_prod_type' (f := g)]
  exact Fintype.sum_equiv (finProdFinEquiv (m := 4) (n := 128)).symm _ _ (fun _ => rfl)

/-- The word `0x3E800000` denotes the real `1/4`. -/
theorem ofBits_quarter : Ideal.ofBits .f32 0x3E800000#32 = ((1 / 4 : ℝ) : EReal) := by
  simp [Ideal.ofBits, Ideal.ieee, -EReal.coe_mul]; norm_num

/-- The word `0x40800000` denotes the real `4`. -/
theorem ofBits_four : Ideal.ofBits .f32 0x40800000#32 = ((4 : ℝ) : EReal) := by
  simp [Ideal.ofBits, Ideal.ieee, -EReal.coe_mul]; norm_num

/-- The folded arrangement equals the double-sum arrangement, for every extended-real input. -/
theorem attnFolded_eq_attn (x : Fin 8192 → Fin 128 → EReal) (w : Fin 4 → Fin 128 → EReal)
    (n m : Fin 8192) : attnFolded x w n m = attn x w n m := by
  unfold attnFolded attn folded
  rw [ofBits_quarter, ofBits_four, Ideal.div_coe (by norm_num : (4 : ℝ) ≠ 0)]
  rw [sum_fold (fun p d => unitRow x w p n d * unitRow x w p m d)]

end Cert.HeadSpec

end
-- ==== Proof.RefValue.lean ====
import proofs.«163775_j29703993819992_2_alg».proof.Proof.Gen.ReferenceIdeal.Read
import proofs.«163775_j29703993819992_2_alg».proof.Proof.HeadSpec

/-!
# The reference's last stage, read at an index, is the mean over heads of cosine similarities

The reference's operations are read one stage at a time (the generated stages `val_main_vN` and their
`_apply` lemmas), at the ideal instance, at indices built from coordinates:
* stage 4 at `(p, n, d)` is the scaled entry `x(n,d) · w(p,d)`;
* stage 6 at `(p, n)` is the sum of its squares over the lanes (the sum starts from the zero word, which denotes `0`);
* stage 10 at `(p, n, 0)` is the clamped length `max (√ …) ε`;
* stage 12 at `(p, n, d)` is the normalised entry;
* stage 16 at `(n, m)` is the sum over heads of the inner products over lanes, divided by the word of `4`.
No finiteness of the inputs is used: each step is the definition of an operation at an index, or `0 + a = a`.
-/

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.HeadSpec

variable (x0 : (⟨S8192x128, .f32⟩ : BufTy).Contents (Elt Ideal)) (x1 : (⟨S4x128, .f32⟩ : BufTy).Contents (Elt Ideal))

/-- Stage 4 (the product of the two broadcasts) at `(p, n, d)` is `x(n,d) · w(p,d)`. -/
theorem scaled_apply (p : Fin 4) (n : Fin 8192) (d : Fin 128) :
    val_main_v4 (F := Ideal) x0 x1 (ix3 p n d)
      = scaled (fun n d => x0 (ix2 n d)) (fun p d => x1 (ix2 p d)) p n d := by
  have e0 : idx_main_v0 (idx_main_v2 (ix3 p n d)) = ix2 n d :=
    funext fun a => Fin.ext (by match a with | ⟨0, _⟩ => rfl | ⟨1, _⟩ => rfl)
  have e1 : idx_main_v1 (idx_main_v3 (ix3 p n d)) = ix2 p d :=
    funext fun a => Fin.ext (by match a with | ⟨0, _⟩ => rfl | ⟨1, _⟩ => rfl)
  rw [val_main_v4_apply, val_main_v2_apply, val_main_v0_apply, val_main_v3_apply, val_main_v1_apply, e0, e1]
  rfl

/-- Stage 6 (the sum over lanes, started from the zero word) at `(p, n)` is the sum of the squares of the
    scaled row. -/
theorem sumsq_apply (p : Fin 4) (n : Fin 8192) :
    val_main_v6 (F := Ideal) x0 x1 (ix2 p n)
      = ∑ d : Fin 128, scaled (fun n d => x0 (ix2 n d)) (fun p d => x1 (ix2 p d)) p n d
          * scaled (fun n d => x0 (ix2 n d)) (fun p d => x1 (ix2 p d)) p n d := by
  rw [val_main_v6_apply, val_main_cst_apply]
  simp only [Ideal.ofBits_def, Ideal.ofBits_zero_f32, zero_add]
  refine Finset.sum_congr rfl fun d _ => ?_
  have e : idx_main_v6 (ix2 p n) d = ix3 p n d :=
    funext fun a => Fin.ext (by match a with | ⟨0, _⟩ => rfl | ⟨1, _⟩ => rfl | ⟨2, _⟩ => rfl)
  rw [e, val_main_v5_apply, scaled_apply]
  rfl

/-- Stage 10 (the square root of the broadcast sum, clamped below at the word `ε`) at `(p, n, c)` is the
    clamped length of the scaled row. -/
theorem norm_apply (p : Fin 4) (n : Fin 8192) (c : Fin 1) :
    val_main_v10 (F := Ideal) x0 x1 (ix3 p n c)
      = clampedNorm (fun n d => x0 (ix2 n d)) (fun p d => x1 (ix2 p d)) p n := by
  have e : idx_main_v7 (ix3 p n c) = ix2 p n :=
    funext fun a => Fin.ext (by match a with | ⟨0, _⟩ => rfl | ⟨1, _⟩ => rfl)
  rw [val_main_v10_apply, val_main_v8_apply, val_main_v7_apply, val_main_v9_apply, val_main_cst_0_apply, e,
    sumsq_apply]
  rfl

/-- Stage 12 (the scaled entry divided by the broadcast clamped length) at `(p, n, d)` is the normalised entry. -/
theorem unitRow_apply (p : Fin 4) (n : Fin 8192) (d : Fin 128) :
    val_main_v12 (F := Ideal) x0 x1 (ix3 p n d)
      = unitRow (fun n d => x0 (ix2 n d)) (fun p d => x1 (ix2 p d)) p n d := by
  have e : idx_main_v11 (ix3 p n d) = ix3 p n (0 : Fin 1) :=
    funext fun a => Fin.ext (by match a with | ⟨0, _⟩ => rfl | ⟨1, _⟩ => rfl | ⟨2, _⟩ => rfl)
  rw [val_main_v12_apply, val_main_v11_apply, e, norm_apply, scaled_apply]
  rfl

/-- The reference's result at `(n, m)`: the sum over heads (started from the zero word) of the inner products over
    lanes of the normalised rows, divided by the word of `4`. -/
theorem ref_apply (n m : Fin 8192) :
    val_main_v16 (F := Ideal) x0 x1 (ix2 n m)
      = attn (fun n d => x0 (ix2 n d)) (fun p d => x1 (ix2 p d)) n m := by
  rw [val_main_v16_apply, val_main_v14_apply, val_main_v15_apply, val_main_cst_2_apply, val_main_cst_1_apply]
  simp only [Ideal.ofBits_def, Ideal.ofBits_zero_f32, zero_add, Ideal.hostDivf_def]
  unfold attn
  congr 1
  refine Finset.sum_congr rfl fun p _ => ?_
  rw [val_main_v13_apply]
  refine Finset.sum_congr rfl fun d _ => ?_
  have el : lidx_main_v13 (idx_main_v14 (ix2 n m) p) d = ix3 p n d :=
    funext fun a => Fin.ext (by match a with | ⟨0, _⟩ => rfl | ⟨1, _⟩ => rfl | ⟨2, _⟩ => rfl)
  have er : ridx_main_v13 (idx_main_v14 (ix2 n m) p) d = ix3 p m d :=
    funext fun a => Fin.ext (by match a with | ⟨0, _⟩ => rfl | ⟨1, _⟩ => rfl | ⟨2, _⟩ => rfl)
  rw [el, er, unitRow_apply, unitRow_apply]

end Cert.RefValue

end
-- ==== Proof.Claims.lean ====
import proofs.«163775_j29703993819992_2_alg».proof.Defs
import proofs.«163775_j29703993819992_2_alg».proof.Proof.Gen.Kernel
import proofs.«163775_j29703993819992_2_alg».proof.Proof.Gen.KernelIdeal
import proofs.«163775_j29703993819992_2_alg».proof.Proof.Gen.ReferenceIdeal
import proofs.«163775_j29703993819992_2_alg».proof.Proof.Gen.Pre_finite_inputs
import proofs.«163775_j29703993819992_2_alg».proof.Proof.Gen.ReferenceIdeal.Read
import proofs.«163775_j29703993819992_2_alg».proof.Proof.KernelRun
import proofs.«163775_j29703993819992_2_alg».proof.Proof.IdealRun
import proofs.«163775_j29703993819992_2_alg».proof.Proof.IdealBlocks0
import proofs.«163775_j29703993819992_2_alg».proof.Proof.IdealBlocks1
import proofs.«163775_j29703993819992_2_alg».proof.Proof.HeadAlgebra
import proofs.«163775_j29703993819992_2_alg».proof.Proof.RefValue

/-!
# The claims

The three frames: each kernel program by the run of its two regions, the reference by its run with the result
dropped. The idealisation rewrote nothing, so `preserves` has no conjunct.

The value claim. The kernel's result array ends at what its second region's write-backs leave, which is the scaled
inner products of the rows of the array its first region's write-backs leave, which is the four heads' normalised
rows laid side by side: at `(n, m)` the folded arrangement `attnFolded` of the mean over heads. The reference's
result at `(n, m)` is the arrangement `attn` with the heads summed apart and divided by four. The two are equal on
the extended reals for every input (regrouping a finite sum; dividing by `4` is multiplying by `1/4`), so the
precondition is never opened.
-/

noncomputable section

namespace Cert.Proof.Claims

open Idealize.ShloMosaic Idealize.ShloMosaic.TcCoe Idealize.SL.Sem Idealize.ShloMosaic.ValueIdx
open Cert.KernelIdeal.Run (prodOf foldedOf)

theorem frame_kernel : Cert.frame_Kernel := fun m ρ _ => Cert.Kernel.Run.frame (F := Bits) m ρ
theorem frame_ideal : Cert.frame_KernelIdeal := fun m ρ _ => Cert.KernelIdeal.Run.frame (F := Ideal) m ρ
theorem frame_ref : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At `(n, m)` the inner product of folded rows `n` and `m`, times the word of `1/4`, is the folded arrangement
    `attnFolded` of the mean over heads. -/
theorem folded_result_apply (a0 : Cert.KernelIdeal.S8192x128.Idx → EReal) (a1 : Cert.KernelIdeal.S4x128.Idx → EReal) (n m : Fin 8192) :
    prodOf (foldedOf a0 a1) (ix2 n m)
      = Cert.HeadSpec.attnFolded (fun n d => a0 (ix2 n d)) (fun p d => a1 (ix2 p d)) n m := rfl

theorem algebraic : Cert.algebraic_KernelIdeal_ReferenceIdeal := by
  intro m ρ m' ρ' _ hagree
  refine ⟨fun c => prodOf (foldedOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Run.run_named (F := Ideal) m ρ)
    rw [Cert.KernelIdeal.Run.final1, Cert.KernelIdeal.Run.V1_main_v0, Cert.KernelIdeal.Run.final0]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2]
    funext i
    obtain ⟨n, k, rfl⟩ : ∃ (n : Fin 8192) (k : Fin 8192), i = ix2 n k := ⟨i 0, i 1, eq_ix2 i⟩
    rw [Cert.RefValue.ref_apply, ← Cert.HeadSpec.attnFolded_eq_attn]
    exact (folded_result_apply _ _ n k).symm

end Cert.Proof.Claims

end
-- ==== Proof.lean ====
/- The certificate of the kernel against its reference: two pipelined kernels (scale the embeddings by each head's
   weights and normalise each row, the four heads side by side; then the inner products of those folded rows, times
   a quarter) against the mean over heads of the per-head cosine similarities. The frames, the empty `preserves`
   and the value claim are proved in Proof/Claims.lean; here they are put under the programs' stated facts. -/
import proofs.«163775_j29703993819992_2_alg».proof.Defs
import proofs.«163775_j29703993819992_2_alg».proof.Proof.Gen.Kernel
import proofs.«163775_j29703993819992_2_alg».proof.Proof.Gen.KernelIdeal
import proofs.«163775_j29703993819992_2_alg».proof.Proof.Gen.ReferenceIdeal
import proofs.«163775_j29703993819992_2_alg».proof.Proof.Gen.Pre_finite_inputs
import proofs.«163775_j29703993819992_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_ref, Claims.preserves, Claims.algebraic⟩

end Cert.Proof

end
